-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x512 : Shape := ⟨2, ![64, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_v33

def fn {F : FTy → Type} [FloatOps F] (main_arg0 : FVec F S8192x64 .f32) (main_arg1 : FVec F S8192x64 .f32) (main_arg2 : FVec F S64x512 .f32) (main_arg3 : FVec F S512 .f32) (main_arg4 : FVec F S512x512 .f32) (main_arg5 : FVec F S512 .f32) (main_arg6 : FVec F S512x128 .f32) (main_arg7 : FVec F S128 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8192x64 : Shape := ⟨2, ![8192, 64]⟩
abbrev S64x512 : Shape := ⟨2, ![64, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S16384x64 : Shape := ⟨2, ![16384, 64]⟩
abbrev S1x512 : Shape := ⟨2, ![1, 512]⟩
abbrev S1x128 : Shape := ⟨2, ![1, 128]⟩
abbrev S16384x128 : Shape := ⟨2, ![16384, 128]⟩
abbrev S1024x64 : Shape := ⟨2, ![1024, 64]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S8192x128 : Shape := ⟨2, ![8192, 128]⟩
abbrev S8192x8192 : Shape := ⟨2, ![8192, 8192]⟩
abbrev S2048x128 : Shape := ⟨2, ![2048, 128]⟩
abbrev S1024x2048 : Shape := ⟨2, ![1024, 2048]⟩

abbrev nBuf : Space → Nat
  | .hbm => 16
  | .vmem => 16
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S16384x64, .f32⟩
  | .hbm, ⟨9, _⟩ => ⟨S1x512, .f32⟩
  | .hbm, ⟨10, _⟩ => ⟨S1x512, .f32⟩
  | .hbm, ⟨11, _⟩ => ⟨S1x128, .f32⟩
  | .hbm, ⟨12, _⟩ => ⟨S16384x128, .bf16⟩
  | .hbm, ⟨13, _⟩ => ⟨S8192x128, .bf16⟩
  | .hbm, ⟨14, _⟩ => ⟨S8192x128, .bf16⟩
  | .hbm, ⟨15, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S64x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S2048x128, .bf16⟩
  | .local _ .vmem, ⟨13, _⟩ => ⟨S2048x128, .bf16⟩
  | .local _ .vmem, ⟨14, _⟩ => ⟨S1024x2048, .f32⟩
  | .local _ .vmem, ⟨15, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S8192x64_S8192x64_S16384x64_d0 : Shape.Concatenates [S8192x64, S8192x64] S16384x64 0
  shapeCasts_S512_S1x512 : S512.ShapeCasts S1x512
  shapeCasts_S128_S1x128 : S128.ShapeCasts S1x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  slices_S16384x128_S8192x128_0_0 : S16384x128.Slices ![0, 0] S8192x128
  slices_S16384x128_S8192x128_8192_0 : S16384x128.Slices ![8192, 0] S8192x128
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  dot_S1024x64_S64x512_S1024x512_1_0_0_1_n_n_wf : DotDims.WF S1024x64 S64x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .bf16 = 32 ∨ (Rect.block (s := S16384x128) S1024x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x8192.size a
  hwx1_2 : ∀ i : grid1.Coords, EltTy.bits .f32 = 32 ∨ (Rect.block (s := S8192x8192) S1024x2048.size (cc1_transform_2 i) (hinb1_2 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x64 : Shape := ⟨2, ![8192, 64]⟩
abbrev S64x512 : Shape := ⟨2, ![64, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S8192x512 : Shape := ⟨2, ![8192, 512]⟩
abbrev S1x512 : Shape := ⟨2, ![1, 512]⟩
abbrev S_ : Shape := ⟨0, ![]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x128, .f32⟩
  | .hbm, ⟨35, _⟩ => ⟨S8192x128, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x128, .f32⟩
  | .hbm, ⟨63, _⟩ => ⟨S8192x128, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call2_cst : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call3_cst : Ref sig .tc := ⟨.hbm, 47, rfl⟩
abbrev main_call3_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  dot_S8192x64_S64x512_S8192x512_1_0_0_1_n_n_wf : DotDims.WF S8192x64 S64x512 S8192x512 [1] [0] [0] [1] [] []
  dot_S8192x512_S512x512_S8192x512_1_0_0_1_n_n_wf : DotDims.WF S8192x512 S512x512 S8192x512 [1] [0] [0] [1] [] []
  dot_S8192x512_S512x128_S8192x128_1_0_0_1_n_n_wf : DotDims.WF S8192x512 S512x128 S8192x128 [1] [0] [0] [1] [] []
  dot_S8192x128_S8192x128_S8192x8192_1_1_0_0_n_n_wf : DotDims.WF S8192x128 S8192x128 S8192x8192 [1] [1] [0] [0] [] []

variable [Facts₀]

def dot_S8192x64_S64x512_S8192x512_1_0_0_1_n_n : DotDims S8192x64 S64x512 S8192x512 where
  lhsContracting := [1]
  rhsContracting := [0]
  lhsNonContracting := [0]
  rhsNonContracting := [1]
  lhsBatch := []
  rhsBatch := []
  wf := dot_S8192x64_S64x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.RunValue.lean ====
/- The run of the idealized kernel's @main with its RESULT array named. At the compiled mesh, from any memory with
   zero counters, every weakly fair execution of @main on the TensorCores terminates, nothing faulting, and in every
   final state the result array `main_v7` holds the contents the second region's write-backs leave — the last boundary
   valuation `Gen.W4` read at the result's buffer — while each of the eight argument arrays is as launched. -/
import proofs.«171205_j37538014167585_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- Every weakly fair execution of @main terminates, and every final state has the result array at the last boundary
    valuation's contents (every unscoped buffer is read off the last thread state, and the result is an unscoped HBM
    buffer) and the eight argument arrays as launched (the fold at an argument's buffer walks back to the launch
    memory). -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v7) = Gen.W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.HostGlue.lean ====
/-
  What the host operations of the program's entry function put in the buffers the two kernel regions read,
  read at coordinates.

  Before region 0: one concatenation along the rows (two 8192×64 arrays stacked into a 16384×64 array) and three
  reshapes of a vector of length a into a 1×a matrix; the weight matrices are written by no operation.
  Between the regions: two row slices (rows 0 … 8191 and rows 8192 … 16383) of region 0's 16384×128 output.
  Each lemma states one of these buffers at an index (or, where nothing writes it, as a whole) in terms of the
  contents it was computed from.
-/
import proofs.«171205_j37538014167585_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostGlue

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-! ## Region 0's entry contents: what the first stretch of host operations leaves -/

/-- The concatenated array as a whole: the two launch arrays stacked along the rows. -/
theorem V1_v0_eq (c : Dev nD) :
    (V1 m ρ c main_v0 : S16384x64.Idx → Elt F .f32)
      = concatenate S16384x64 0 [⟨S8192x64, m ((c : Thread nD τ).loc main_arg0)⟩, ⟨S8192x64, m ((c : Thread nD τ).loc main_arg1)⟩]
          concatenates_S8192x64_S8192x64_S16384x64_d0 := by
  dsimp only [Gen.V1, Gen.W1, Gen.hostOps0]
  after_results

/-- Rows 0 … 8191 of the concatenated array are the first argument's rows. -/
theorem V1_v0_left (c : Dev nD) (r : Fin 8192) (k : Fin 64) :
    V1 m ρ c main_v0 (ix2 (⟨r.val, by omega⟩ : Fin 16384) k) = m ((c : Thread nD τ).loc main_arg0) (ix2 r k) := by
  rw [V1_v0_eq]
  exact concatenate_pair_apply_left (t := S16384x64) (s₁ := S8192x64) (s₂ := S8192x64) (0 : Fin 2) _ _ _ _ rfl (ix2 r k)
    (fun b => by
      match b with
      | ⟨0, _⟩ => rfl
      | ⟨1, _⟩ => rfl)

/-- Rows 8192 … 16383 of the concatenated array are the second argument's rows, 8192 less. -/
theorem V1_v0_right (c : Dev nD) (r : Fin 8192) (k : Fin 64) :
    V1 m ρ c main_v0 (ix2 (⟨8192 + r.val, by omega⟩ : Fin 16384) k) = m ((c : Thread nD τ).loc main_arg1) (ix2 r k) := by
  rw [V1_v0_eq]
  exact concatenate_pair_apply_right (t := S16384x64) (s₁ := S8192x64) (s₂ := S8192x64) (0 : Fin 2) _ _ _ _ rfl rfl (ix2 r k)
    (fun b hb => by
      match b, hb with
      | ⟨0, _⟩, hb => exact absurd rfl hb
      | ⟨1, _⟩, _ => rfl)
    (by show r.val + 8192 = 8192 + r.val; omega)

/-- Entry (0, k) of the first reshaped vector is entry k of the fourth argument. -/
theorem V1_v1 (c : Dev nD) (k : Fin 512) :
    V1 m ρ c main_v1 (ix2 (0 : Fin 1) k) = m ((c : Thread nD τ).loc main_arg3) (ix1 k) := by
  have e : (V1 m ρ c main_v1 : S1x512.Idx → Elt F .f32)
      = shapeCast S1x512 (m ((c : Thread nD τ).loc main_arg3)) shapeCasts_S512_S1x512 := by
    dsimp only [Gen.V1, Gen.W1, Gen.hostOps0]
    after_results
    rfl
  rw [e]
  exact shapeCast_a_1a_apply _ _ 0 k

/-- Entry (0, k) of the second reshaped vector is entry k of the sixth argument. -/
theorem V1_v2 (c : Dev nD) (k : Fin 512) :
    V1 m ρ c main_v2 (ix2 (0 : Fin 1) k) = m ((c : Thread nD τ).loc main_arg5) (ix1 k) := by
  have e : (V1 m ρ c main_v2 : S1x512.Idx → Elt F .f32)
      = shapeCast S1x512 (m ((c : Thread nD τ).loc main_arg5)) shapeCasts_S512_S1x512 := by
    dsimp only [Gen.V1, Gen.W1, Gen.hostOps0]
    after_results
    rfl
  rw [e]
  exact shapeCast_a_1a_apply _ _ 0 k

/-- Entry (0, k) of the third reshaped vector is entry k of the eighth argument. -/
theorem V1_v3 (c : Dev nD) (k : Fin 128) :
    V1 m ρ c main_v3 (ix2 (0 : Fin 1) k) = m ((c : Thread nD τ).loc main_arg7) (ix1 k) := by
  have e : (V1 m ρ c main_v3 : S1x128.Idx → Elt F .f32)
      = shapeCast S1x128 (m ((c : Thread nD τ).loc main_arg7)) shapeCasts_S128_S1x128 := by
    dsimp only [Gen.V1, Gen.W1, Gen.hostOps0]
    after_results
    rfl
  rw [e]
  exact shapeCast_a_1a_apply _ _ 0 k

/-- The third argument's array is untouched by the first stretch: all its entries as launched. -/
theorem V1_arg2 (c : Dev nD) : V1 m ρ c main_arg2 = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The fifth argument's array is untouched by the first stretch: all its entries as launched. -/
theorem V1_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The seventh argument's array is untouched by the first stretch: all its entries as launched. -/
theorem V1_arg6 (c : Dev nD) : V1 m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-! ## Region 1's entry contents: the two row slices of region 0's output -/

/-- Row r of the first slice is row r of region 0's output array. -/
theorem V3_v5 (c : Dev nD) (r : Fin 8192) (k : Fin 128) :
    V3 m ρ c main_v5 (ix2 r k) = W2 m ρ c (Proc.devRef .tc main_v4) (ix2 (⟨r.val, by omega⟩ : Fin 16384) k) := by
  have e : (V3 m ρ c main_v5 : S8192x128.Idx → Elt F .bf16)
      = extractStridedSlice S8192x128 ![0, 0] (W2 m ρ c (Proc.devRef .tc main_v4)) slices_S16384x128_S8192x128_0_0 := by
    dsimp only [Gen.V3, Gen.W3, Gen.hostOps1]
    after_results
  rw [e]
  exact slice2_axis0_apply 0 _ _ r k _ (by show r.val = 0 + r.val; omega)

/-- Row r of the second slice is row 8192 + r of region 0's output array. -/
theorem V3_v6 (c : Dev nD) (r : Fin 8192) (k : Fin 128) :
    V3 m ρ c main_v6 (ix2 r k) = W2 m ρ c (Proc.devRef .tc main_v4) (ix2 (⟨8192 + r.val, by omega⟩ : Fin 16384) k) := by
  have e : (V3 m ρ c main_v6 : S8192x128.Idx → Elt F .bf16)
      = extractStridedSlice S8192x128 ![8192, 0] (W2 m ρ c (Proc.devRef .tc main_v4)) slices_S16384x128_S8192x128_8192_0 := by
    dsimp only [Gen.V3, Gen.W3, Gen.hostOps1]
    after_results
  rw [e]
  exact slice2_axis0_apply 8192 _ _ r k _ rfl

/-! ## The regions' output arrays at their exits -/

/-- Region 0's output array at its exit is what the pipeline's write-backs leave in window 7's array. -/
theorem W2_v4 (c : Dev nD) : W2 m ρ c (Proc.devRef .tc main_v4) = (dat0 (V1 m ρ) c).arrAt 7 cfg0.N :=
  Gen.W2_arr m ρ c 7

/-- Region 1's output array at its exit is what the pipeline's write-backs leave in window 2's array. -/
theorem W4_v7 (c : Dev nD) : W4 m ρ c (Proc.devRef .tc main_v7) = (dat1 (V3 m ρ) c).arrAt 2 cfg1.N :=
  Gen.W4_arr m ρ c 2

end Cert.KernelIdeal.HostGlue
end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibPerceptron.lean ====
/-
  A perceptron with one hidden layer, applied to every row of an array of extended reals.

  For an `M × D` array `x`, weights `W1 : D × H` and `W2 : H × N`, and biases `b1 : H` and `b2 : N`,

    hidden x W1 b1 (r, j)        = max (∑ k, x (r, k) · W1 (k, j) + b1 j) 0
    layers x W1 b1 W2 b2 (r, c)  = ∑ j, hidden x W1 b1 (r, j) · W2 (j, c) + b2 c.

  * `layers_rows`: row `r` of the result depends on row `r` of `x` only, so the perceptron of a block of rows of `x` is
    that block of rows of the perceptron of `x`.
  * `unit_form`: the sequence of operations a matrix unit runs on a block — a product into the zero accumulator, the bias
    laid out as one row and repeated down the rows, the maximum with zero, a change of float format (the identity on
    the extended reals), a second product into zero and a second bias — is `layers`.
  * `host_form`: the same perceptron written with general dot products and biases broadcast along the rows is `layers`.

  The two forms are the same sums of the same products in the same grouping; no law of arithmetic beyond `0 + a = a` is
  used, and nothing needs the entries to be finite.
-/
import Idealize.ShloMosaic.Lib.ValueIdx
import Idealize.ShloMosaic.Lib.ValueLayout
import Idealize.ShloMosaic.Lib.Pipeline.Value
import Idealize.ShloMosaic.PureOps.Ideal.Laws
import proofs.«171205_j37538014167585_2_alg».proof.Proof.LibPlainProduct

noncomputable section

open scoped BigOperators

namespace Cert.Perceptron

open Idealize.ShloMosaic Idealize.ShloMosaic.ValueIdx Idealize.ShloMosaic.PlainProduct

variable {φx φ1 φ2 : FTy} {M D H N : Nat}

/-- The hidden layer: `max (x · W1 + b1) 0`, the bias added to every row. -/
def hidden (x : FVec Ideal ⟨2, ![M, D]⟩ φx) (W1 : FVec Ideal ⟨2, ![D, H]⟩ φ1) (b1 : FVec Ideal ⟨1, ![H]⟩ .f32) :
    FVec Ideal ⟨2, ![M, H]⟩ .f32 :=
  fun i => max (rowsByCols x W1 i + b1 (ix1 (i 1))) 0

/-- The perceptron: `hidden · W2 + b2`. -/
def layers (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32) : FVec Ideal ⟨2, ![M, N]⟩ .f32 :=
  fun j => rowsByCols (hidden x W1 b1) W2 j + b2 (ix1 (j 1))

/-- Rows `e r` of the hidden layer are the hidden layer of rows `e r` of the input. -/
theorem hidden_rows {B : Nat} (x : FVec Ideal ⟨2, ![M, D]⟩ φx) (W1 : FVec Ideal ⟨2, ![D, H]⟩ φ1) (b1 : FVec Ideal ⟨1, ![H]⟩ .f32)
    (xb : FVec Ideal ⟨2, ![B, D]⟩ φx) (e : Fin B → Fin M)
    (hxb : ∀ (r : Fin B) (k : Fin D), xb (ix2 (n0 := B) (n1 := D) r k) = x (ix2 (n0 := M) (n1 := D) (e r) k))
    (r : Fin B) (j : Fin H) :
    hidden xb W1 b1 (ix2 (n0 := B) (n1 := H) r j) = hidden x W1 b1 (ix2 (n0 := M) (n1 := H) (e r) j) :=
  congrArg (fun a => max (a + b1 (ix1 j)) 0) (rowsByCols_rows x W1 xb e hxb (ix2 (n0 := B) (n1 := H) r j))

/-- Rows `e r` of the perceptron are the perceptron of rows `e r` of the input: if `xb (r, k) = x (e r, k)` then
    `layers xb … (r, c) = layers x … (e r, c)`. -/
theorem layers_rows {B : Nat} (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (xb : FVec Ideal ⟨2, ![B, D]⟩ φx) (e : Fin B → Fin M)
    (hxb : ∀ (r : Fin B) (k : Fin D), xb (ix2 (n0 := B) (n1 := D) r k) = x (ix2 (n0 := M) (n1 := D) (e r) k))
    (j : (⟨2, ![B, N]⟩ : Shape).Idx) :
    layers xb W1 b1 W2 b2 j = layers x W1 b1 W2 b2 (ix2 (n0 := M) (n1 := N) (e (j 0)) (j 1)) :=
  congrArg (fun a => a + b2 (ix1 (j 1)))
    (rowsByCols_rows (hidden x W1 b1) W2 (hidden xb W1 b1) e (hidden_rows x W1 b1 xb e hxb) j)

/-- A bias laid out as one row and repeated down `M` rows reads, at `(r, c)`, the bias at `c`. -/
theorem bias_rows {K : Nat} (b : FVec Ideal ⟨1, ![K]⟩ .f32) (h1 : (⟨1, ![K]⟩ : Shape).ShapeCasts ⟨2, ![1, K]⟩)
    (h2 : (⟨2, ![1, K]⟩ : Shape).Broadcasts ⟨2, ![M, K]⟩) (i : (⟨2, ![M, K]⟩ : Shape).Idx) :
    broadcastTo ⟨2, ![M, K]⟩ (shapeCast ⟨2, ![1, K]⟩ b h1) h2 i = b (ix1 (i 1)) := by
  obtain ⟨r, c, rfl⟩ : ∃ (r : Fin M) (c : Fin K), i = ix2 r c := ⟨i 0, i 1, eq_ix2 i⟩
  exact (broadcastTo_1b_ab_apply _ h2 r c).trans (shapeCast_a_1a_apply b h1 0 c)

/-- The hidden layer as a matrix unit computes it. -/
theorem unit_hidden (x : FVec Ideal ⟨2, ![M, D]⟩ φx) (W1 : FVec Ideal ⟨2, ![D, H]⟩ φ1) (b1 : FVec Ideal ⟨1, ![H]⟩ .f32)
    (h1 : (⟨1, ![H]⟩ : Shape).ShapeCasts ⟨2, ![1, H]⟩) (h2 : (⟨2, ![1, H]⟩ : Shape).Broadcasts ⟨2, ![M, H]⟩) :
    maximumf (addf (matmul (DotDims.plain M D H) none x W1 (constant ⟨2, ![M, H]⟩ .f32 0x00000000#32))
        (broadcastTo ⟨2, ![M, H]⟩ (shapeCast ⟨2, ![1, H]⟩ b1 h1) h2))
      (broadcast ⟨2, ![M, H]⟩ (Scalar.ofBits (F := Ideal) .f32 0x00000000#32))
    = hidden x W1 b1 := by
  funext i
  show max (FloatOps.matmul (DotDims.plain M D H) none x W1 (constant ⟨2, ![M, H]⟩ .f32 0x00000000#32) i
      + broadcastTo ⟨2, ![M, H]⟩ (shapeCast ⟨2, ![1, H]⟩ b1 h1) h2 i) (Ideal.ofBits .f32 0x00000000#32) = _
  rw [matmul_zero_plain, bias_rows, Ideal.ofBits_zero_f32]
  rfl

/-- THE MATRIX UNIT'S FORM: two products into the zero accumulator, each followed by its bias laid out as one row and
    repeated down the rows, with the maximum with zero and a change of float format between them. -/
theorem unit_form {ψ : FTy} (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (h1 : (⟨1, ![H]⟩ : Shape).ShapeCasts ⟨2, ![1, H]⟩) (h2 : (⟨2, ![1, H]⟩ : Shape).Broadcasts ⟨2, ![M, H]⟩)
    (h3 : (⟨1, ![N]⟩ : Shape).ShapeCasts ⟨2, ![1, N]⟩) (h4 : (⟨2, ![1, N]⟩ : Shape).Broadcasts ⟨2, ![M, N]⟩)
    (hψ : ψ.bits < FTy.f32.bits) :
    addf (matmul (DotDims.plain M H N) none
          (truncf ψ (maximumf (addf (matmul (DotDims.plain M D H) none x W1 (constant ⟨2, ![M, H]⟩ .f32 0x00000000#32))
              (broadcastTo ⟨2, ![M, H]⟩ (shapeCast ⟨2, ![1, H]⟩ b1 h1) h2))
            (broadcast ⟨2, ![M, H]⟩ (Scalar.ofBits (F := Ideal) .f32 0x00000000#32))) hψ)
          W2 (constant ⟨2, ![M, N]⟩ .f32 0x00000000#32))
      (broadcastTo ⟨2, ![M, N]⟩ (shapeCast ⟨2, ![1, N]⟩ b2 h3) h4)
    = layers x W1 b1 W2 b2 := by
  rw [unit_hidden]
  funext j
  show FloatOps.matmul (DotDims.plain M H N) none (truncf ψ (hidden x W1 b1) hψ) W2 (constant ⟨2, ![M, N]⟩ .f32 0x00000000#32) j
      + broadcastTo ⟨2, ![M, N]⟩ (shapeCast ⟨2, ![1, N]⟩ b2 h3) h4 j = _
  rw [matmul_zero_plain, bias_rows]
  rfl

/-- A bias broadcast first to one row and then along `M` rows reads, at `(r, c)`, the bias at `c`. -/
theorem bias_inDim {K : Nat} (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![M, K]⟩ (![0, 1] : Fin 2 → Fin 2)) (i : (⟨2, ![M, K]⟩ : Shape).Idx) :
    broadcastInDim ⟨2, ![M, K]⟩ ![0, 1] h2 (broadcastInDim ⟨2, ![1, K]⟩ ![1] h1 b) i = b (ix1 (i 1)) := by
  refine (broadcastInDim_apply _ h2 _ i (ix2 (0 : Fin 1) (i 1)) fun a => ?_).trans
    (broadcastInDim_apply _ h1 b _ (ix1 (i 1)) fun a => ?_)
  · match a with
    | ⟨0, _⟩ => show 0 = if (1 : Nat) = 1 then 0 else (i 0).val; rw [if_pos rfl]
    | ⟨1, _⟩ =>
      show (i 1).val = if K = 1 then 0 else (i 1).val
      split
      · have := idx2_lt1 i; omega
      · rfl
  · match a with
    | ⟨0, _⟩ =>
      show (i 1).val = if K = 1 then 0 else (i 1).val
      split
      · have := idx2_lt1 i; omega
      · rfl

/-- THE HOST'S FORM: two general dot products, each followed by its bias broadcast along the rows, with the maximum with a
    zero array between them. -/
theorem host_form (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h0 : (⟨0, ![]⟩ : Shape).BroadcastsInDim ⟨2, ![M, H]⟩ (![] : Fin 0 → Fin 2)) :
    addf (Host.dotGeneral (DotDims.plain M H N) none
          (maximumf (addf (Host.dotGeneral (DotDims.plain M D H) none x W1)
              (broadcastInDim ⟨2, ![M, H]⟩ ![0, 1] h2 (broadcastInDim ⟨2, ![1, H]⟩ ![1] h1 b1)))
            (broadcastInDim ⟨2, ![M, H]⟩ ![] h0 (constant (F := Ideal) ⟨0, ![]⟩ .f32 0x00000000#32)))
          W2)
      (broadcastInDim ⟨2, ![M, N]⟩ ![0, 1] h4 (broadcastInDim ⟨2, ![1, N]⟩ ![1] h3 b2))
    = layers x W1 b1 W2 b2 := by
  have hh : maximumf (addf (Host.dotGeneral (DotDims.plain M D H) none x W1)
              (broadcastInDim ⟨2, ![M, H]⟩ ![0, 1] h2 (broadcastInDim ⟨2, ![1, H]⟩ ![1] h1 b1)))
            (broadcastInDim ⟨2, ![M, H]⟩ ![] h0 (constant (F := Ideal) ⟨0, ![]⟩ .f32 0x00000000#32))
          = hidden x W1 b1 := by
    funext i
    show max (FloatOps.dotGeneral (DotDims.plain M D H) none .single x W1 i
        + broadcastInDim ⟨2, ![M, H]⟩ ![0, 1] h2 (broadcastInDim ⟨2, ![1, H]⟩ ![1] h1 b1) i)
        (Ideal.ofBits .f32 0x00000000#32) = _
    rw [dotGeneral_plain, bias_inDim, Ideal.ofBits_zero_f32]
    rfl
  rw [hh]
  funext j
  show FloatOps.dotGeneral (DotDims.plain M H N) none .single (hidden x W1 b1) W2 j
      + broadcastInDim ⟨2, ![M, N]⟩ ![0, 1] h4 (broadcastInDim ⟨2, ![1, N]⟩ ![1] h3 b2) j = _
  rw [dotGeneral_plain, bias_inDim]
  rfl

end Cert.Perceptron

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibEncoderGram.lean ====
/-
  The map both programs compute, on the extended reals.

  A row `h` of an `M × D` array is sent through three affine layers with `max · 0` after the first two,
  `mlp x … (r, ·) = (max (max (h·W1 + b1) 0 · W2 + b2) 0) · W3 + b3`, and the result row `z` is divided by
  `max (sqrt (∑ j, z j · z j)) eps` (`unitRows`): `encode`. Row `r` of `encode x …` depends on row `r` of `x`
  only (`encode_rows`), so encoding a block of rows, or the two halves of a stack of two arrays, is encoding
  the rows one array at a time. Two encoded arrays `a`, `b` meet in `gram a b (i, j) = ∑ k, a (i, k) · b (j, k)`.

  Each definition comes with the two spellings of it that the programs use: whole-block vector operations with the
  bias held as a one-row array and the row sums taken along the lanes, and general dot products with broadcasts along
  named axes. Both are the same sums of the same products in the same grouping; only `0 + a = a` is used, and nothing
  needs an entry to be finite.
-/
import Idealize.ShloMosaic.Lib.ValueIdx
import Idealize.ShloMosaic.Lib.ValueLayout
import Idealize.ShloMosaic.Lib.Pipeline.Value
import Idealize.ShloMosaic.PureOps.Ideal.Laws
import proofs.«171205_j37538014167585_2_alg».proof.Proof.LibPlainProduct
import proofs.«171205_j37538014167585_2_alg».proof.Proof.LibPerceptron
import proofs.«171205_j37538014167585_2_alg».proof.Proof.LibRows
import proofs.«171205_j37538014167585_2_alg».proof.Proof.LibLayout

noncomputable section

open scoped BigOperators

namespace Cert.Encoder

open Idealize.ShloMosaic Idealize.ShloMosaic.ValueIdx Idealize.ShloMosaic.PlainProduct Cert.Perceptron

variable {M D H1 H2 N K : Nat}

/-! ## Three layers -/

/-- Three affine layers, `max · 0` after the first two. -/
def mlp (x : FVec Ideal ⟨2, ![M, D]⟩ .f32) (W1 : FVec Ideal ⟨2, ![D, H1]⟩ .f32) (b1 : FVec Ideal ⟨1, ![H1]⟩ .f32)
    (W2 : FVec Ideal ⟨2, ![H1, H2]⟩ .f32) (b2 : FVec Ideal ⟨1, ![H2]⟩ .f32)
    (W3 : FVec Ideal ⟨2, ![H2, N]⟩ .f32) (b3 : FVec Ideal ⟨1, ![N]⟩ .f32) : FVec Ideal ⟨2, ![M, N]⟩ .f32 :=
  layers (hidden x W1 b1) W2 b2 W3 b3

/-- Rows `e r` of the three layers are the three layers of rows `e r` of the input. -/
theorem mlp_rows {B : Nat} (x : FVec Ideal ⟨2, ![M, D]⟩ .f32) (W1 : FVec Ideal ⟨2, ![D, H1]⟩ .f32) (b1 : FVec Ideal ⟨1, ![H1]⟩ .f32)
    (W2 : FVec Ideal ⟨2, ![H1, H2]⟩ .f32) (b2 : FVec Ideal ⟨1, ![H2]⟩ .f32)
    (W3 : FVec Ideal ⟨2, ![H2, N]⟩ .f32) (b3 : FVec Ideal ⟨1, ![N]⟩ .f32)
    (xb : FVec Ideal ⟨2, ![B, D]⟩ .f32) (e : Fin B → Fin M)
    (hxb : ∀ (r : Fin B) (k : Fin D), xb (ix2 (n0 := B) (n1 := D) r k) = x (ix2 (n0 := M) (n1 := D) (e r) k))
    (j : (⟨2, ![B, N]⟩ : Shape).Idx) :
    mlp xb W1 b1 W2 b2 W3 b3 j = mlp x W1 b1 W2 b2 W3 b3 (ix2 (n0 := M) (n1 := N) (e (j 0)) (j 1)) :=
  layers_rows (hidden x W1 b1) W2 b2 W3 b3 (hidden xb W1 b1) e (hidden_rows x W1 b1 xb e hxb) j

/-! ## Rows divided by their length -/

/-- Each row divided by the larger of its Euclidean length and `eps`. -/
def unitRows (eps : EReal) (z : FVec Ideal ⟨2, ![M, N]⟩ .f32) : FVec Ideal ⟨2, ![M, N]⟩ .f32 :=
  fun i => Ideal.div (z i)
    (max (Ideal.sqrt (∑ j : Fin N, z (ix2 (n0 := M) (n1 := N) (i 0) j) * z (ix2 (n0 := M) (n1 := N) (i 0) j))) eps)

theorem unitRows_apply (eps : EReal) (z : FVec Ideal ⟨2, ![M, N]⟩ .f32) (r : Fin M) (c : Fin N) :
    unitRows eps z (ix2 r c)
      = Ideal.div (z (ix2 r c)) (max (Ideal.sqrt (∑ j : Fin N, z (ix2 r j) * z (ix2 r j))) eps) := rfl

/-- Rows `e r` of the normalised array are the normalised rows `e r`. -/
theorem unitRows_rows {B : Nat} (eps : EReal) (z : FVec Ideal ⟨2, ![M, N]⟩ .f32) (zb : FVec Ideal ⟨2, ![B, N]⟩ .f32)
    (e : Fin B → Fin M)
    (hzb : ∀ (r : Fin B) (k : Fin N), zb (ix2 (n0 := B) (n1 := N) r k) = z (ix2 (n0 := M) (n1 := N) (e r) k))
    (j : (⟨2, ![B, N]⟩ : Shape).Idx) :
    unitRows eps zb j = unitRows eps z (ix2 (n0 := M) (n1 := N) (e (j 0)) (j 1)) := by
  have hj : zb j = z (ix2 (n0 := M) (n1 := N) (e (j 0)) (j 1)) := (congrArg zb (eq_ix2 j)).trans (hzb (j 0) (j 1))
  have hs : (∑ k : Fin N, zb (ix2 (n0 := B) (n1 := N) (j 0) k) * zb (ix2 (n0 := B) (n1 := N) (j 0) k))
      = ∑ k : Fin N, z (ix2 (n0 := M) (n1 := N) (e (j 0)) k) * z (ix2 (n0 := M) (n1 := N) (e (j 0)) k) :=
    Finset.sum_congr rfl fun k _ => congrArg₂ (fun p q => p * q) (hzb (j 0) k) (hzb (j 0) k)
  exact congrArg₂ (fun p s => Ideal.div p (max (Ideal.sqrt s) eps)) hj hs

/-! ## The encoder -/

/-- The three layers followed by the division of each row by its length. -/
def encode (eps : EReal) (x : FVec Ideal ⟨2, ![M, D]⟩ .f32) (W1 : FVec Ideal ⟨2, ![D, H1]⟩ .f32) (b1 : FVec Ideal ⟨1, ![H1]⟩ .f32)
    (W2 : FVec Ideal ⟨2, ![H1, H2]⟩ .f32) (b2 : FVec Ideal ⟨1, ![H2]⟩ .f32)
    (W3 : FVec Ideal ⟨2, ![H2, N]⟩ .f32) (b3 : FVec Ideal ⟨1, ![N]⟩ .f32) : FVec Ideal ⟨2, ![M, N]⟩ .f32 :=
  unitRows eps (mlp x W1 b1 W2 b2 W3 b3)

/-- Rows `e r` of the encoded array are the encoded rows `e r` of the input. -/
theorem encode_rows {B : Nat} (eps : EReal) (x : FVec Ideal ⟨2, ![M, D]⟩ .f32) (W1 : FVec Ideal ⟨2, ![D, H1]⟩ .f32)
    (b1 : FVec Ideal ⟨1, ![H1]⟩ .f32) (W2 : FVec Ideal ⟨2, ![H1, H2]⟩ .f32) (b2 : FVec Ideal ⟨1, ![H2]⟩ .f32)
    (W3 : FVec Ideal ⟨2, ![H2, N]⟩ .f32) (b3 : FVec Ideal ⟨1, ![N]⟩ .f32)
    (xb : FVec Ideal ⟨2, ![B, D]⟩ .f32) (e : Fin B → Fin M)
    (hxb : ∀ (r : Fin B) (k : Fin D), xb (ix2 (n0 := B) (n1 := D) r k) = x (ix2 (n0 := M) (n1 := D) (e r) k))
    (j : (⟨2, ![B, N]⟩ : Shape).Idx) :
    encode eps xb W1 b1 W2 b2 W3 b3 j = encode eps x W1 b1 W2 b2 W3 b3 (ix2 (n0 := M) (n1 := N) (e (j 0)) (j 1)) :=
  unitRows_rows eps (mlp x W1 b1 W2 b2 W3 b3) (mlp xb W1 b1 W2 b2 W3 b3) e
    (fun r k => mlp_rows x W1 b1 W2 b2 W3 b3 xb e hxb (ix2 (n0 := B) (n1 := N) r k)) j

/-! ## Rows against rows -/

/-- Entry `(i, j)` is the product of row `i` of `a` with row `j` of `b`. -/
def gram {φ ψ : FTy} (a : FVec Ideal ⟨2, ![M, K]⟩ φ) (b : FVec Ideal ⟨2, ![N, K]⟩ ψ) : FVec Ideal ⟨2, ![M, N]⟩ .f32 :=
  fun i => ∑ k : Fin K, a (ix2 (n0 := M) (n1 := K) (i 0) k) * b (ix2 (n0 := N) (n1 := K) (i 1) k)

theorem gram_apply {φ ψ : FTy} (a : FVec Ideal ⟨2, ![M, K]⟩ φ) (b : FVec Ideal ⟨2, ![N, K]⟩ ψ) (i : Fin M) (j : Fin N) :
    gram a b (ix2 i j) = ∑ k : Fin K, a (ix2 i k) * b (ix2 j k) := rfl

/-- Both operands contracted on their second axis: the left one is read at (row of the result, position). -/
theorem transposedRhs_lhsIdx (j : (⟨2, ![M, N]⟩ : Shape).Idx) (k : Fin K) :
    (DotDims.transposedRhs M K N).lhsIdx j ((contrEquiv1 (DotDims.transposedRhs M K N) K rfl rfl).symm k)
      = ix2 (n0 := M) (n1 := K) (j 0) k := by
  funext a; apply Fin.ext
  match a with
  | ⟨0, _⟩ => rfl
  | ⟨1, _⟩ => exact ((DotDims.transposedRhs M K N).lhsIdx_val_of_single rfl j _).trans (contrEquiv1_symm_val _ K rfl rfl k)

/-- … and the right one at (column of the result, position). -/
theorem transposedRhs_rhsIdx (j : (⟨2, ![M, N]⟩ : Shape).Idx) (k : Fin K) :
    (DotDims.transposedRhs M K N).rhsIdx j ((contrEquiv1 (DotDims.transposedRhs M K N) K rfl rfl).symm k)
      = ix2 (n0 := N) (n1 := K) (j 1) k := by
  funext a; apply Fin.ext
  match a with
  | ⟨0, _⟩ => rfl
  | ⟨1, _⟩ => exact ((DotDims.transposedRhs M K N).rhsIdx_val_of_single rfl j _).trans (contrEquiv1_symm_val _ K rfl rfl k)

theorem sum_transposedRhs {φ ψ : FTy} (a : FVec Ideal ⟨2, ![M, K]⟩ φ) (b : FVec Ideal ⟨2, ![N, K]⟩ ψ)
    (j : (⟨2, ![M, N]⟩ : Shape).Idx) :
    (∑ q : (DotDims.transposedRhs M K N).contr.Idx,
        a ((DotDims.transposedRhs M K N).lhsIdx j q) * b ((DotDims.transposedRhs M K N).rhsIdx j q)) = gram a b j :=
  (Equiv.sum_comp (contrEquiv1 (DotDims.transposedRhs M K N) K rfl rfl).symm
      (fun q => a ((DotDims.transposedRhs M K N).lhsIdx j q) * b ((DotDims.transposedRhs M K N).rhsIdx j q))).symm.trans
    (Finset.sum_congr rfl fun k _ =>
      congrArg₂ (fun p q => a p * b q) (transposedRhs_lhsIdx j k) (transposedRhs_rhsIdx j k))

/-- A matrix unit's product of `a` with the transpose of `b` into the zero accumulator is `gram a b`. -/
theorem matmul_zero_gram {φ ψ : FTy} (d : DotDims ⟨2, ![M, K]⟩ ⟨2, ![N, K]⟩ ⟨2, ![M, N]⟩) (hd : d = DotDims.transposedRhs M K N)
    (prec : Option ContractPrecision) (a : FVec Ideal ⟨2, ![M, K]⟩ φ) (b : FVec Ideal ⟨2, ![N, K]⟩ ψ) :
    matmul d prec a b (constant ⟨2, ![M, N]⟩ .f32 0x00000000#32) = gram a b := by
  subst hd
  exact funext fun j => (Ideal.matmul_constant_zero_apply (DotDims.transposedRhs M K N) prec a b j).trans (sum_transposedRhs a b j)

/-- The host's general dot product with the same dimension numbers is `gram a b` too. -/
theorem dotGeneral_gram {φ ψ : FTy} (d : DotDims ⟨2, ![M, K]⟩ ⟨2, ![N, K]⟩ ⟨2, ![M, N]⟩) (hd : d = DotDims.transposedRhs M K N)
    (prec : Option ContractPrecision) (a : FVec Ideal ⟨2, ![M, K]⟩ φ) (b : FVec Ideal ⟨2, ![N, K]⟩ ψ) :
    Host.dotGeneral d prec a b = gram a b := by
  subst hd
  exact funext fun j => (Ideal.dotGeneral_apply (DotDims.transposedRhs M K N) prec .single a b j).trans (sum_transposedRhs a b j)

/-- Rows `e i` of `a` against rows `f j` of `b`. -/
theorem gram_rows {φ ψ : FTy} {A B : Nat} (a : FVec Ideal ⟨2, ![M, K]⟩ φ) (b : FVec Ideal ⟨2, ![N, K]⟩ ψ)
    (ab : FVec Ideal ⟨2, ![A, K]⟩ φ) (bb : FVec Ideal ⟨2, ![B, K]⟩ ψ) (e : Fin A → Fin M) (f : Fin B → Fin N)
    (ha : ∀ (r : Fin A) (k : Fin K), ab (ix2 r k) = a (ix2 (e r) k))
    (hb : ∀ (r : Fin B) (k : Fin K), bb (ix2 r k) = b (ix2 (f r) k)) (j : (⟨2, ![A, B]⟩ : Shape).Idx) :
    gram ab bb j = gram a b (ix2 (n0 := M) (n1 := N) (e (j 0)) (f (j 1))) :=
  Finset.sum_congr rfl fun k _ => congrArg₂ (fun p q => p * q) (ha (j 0) k) (hb (j 1) k)

/-! ## The block spelling: the bias a one-row array, the row sums along the lanes -/

/-- The one row of a `[1, K]` array as a vector. -/
def rowOf (B : FVec Ideal ⟨2, ![1, K]⟩ .f32) : FVec Ideal ⟨1, ![K]⟩ .f32 := fun i => B (ix2 (0 : Fin 1) (i 0))

/-- A one-row array repeated down `M` rows reads, at `(r, c)`, its entry `c`. -/
theorem bias_block (B : FVec Ideal ⟨2, ![1, K]⟩ .f32) (hs : (⟨2, ![1, K]⟩ : Shape).ShapeCasts ⟨2, ![1, K]⟩)
    (hb : (⟨2, ![1, K]⟩ : Shape).Broadcasts ⟨2, ![M, K]⟩) (i : (⟨2, ![M, K]⟩ : Shape).Idx) :
    broadcastTo ⟨2, ![M, K]⟩ (shapeCast ⟨2, ![1, K]⟩ B hs) hb i = rowOf B (ix1 (i 1)) := by
  rw [shapeCast_self]
  obtain ⟨r, c, rfl⟩ : ∃ (r : Fin M) (c : Fin K), i = ix2 r c := ⟨i 0, i 1, eq_ix2 i⟩
  exact broadcastTo_1b_ab_apply B hb r c

/-- One hidden layer on a block: a product into the zero accumulator, the one-row bias repeated down the rows, the
    maximum with zero. -/
theorem block_hidden {φx φ1 : FTy} (d : DotDims ⟨2, ![M, D]⟩ ⟨2, ![D, H1]⟩ ⟨2, ![M, H1]⟩) (hd : d = DotDims.plain M D H1)
    (x : FVec Ideal ⟨2, ![M, D]⟩ φx) (W : FVec Ideal ⟨2, ![D, H1]⟩ φ1) (B : FVec Ideal ⟨2, ![1, H1]⟩ .f32)
    (hs : (⟨2, ![1, H1]⟩ : Shape).ShapeCasts ⟨2, ![1, H1]⟩) (hb : (⟨2, ![1, H1]⟩ : Shape).Broadcasts ⟨2, ![M, H1]⟩) :
    maximumf (addf (matmul d none x W (constant ⟨2, ![M, H1]⟩ .f32 0x00000000#32))
        (broadcastTo ⟨2, ![M, H1]⟩ (shapeCast ⟨2, ![1, H1]⟩ B hs) hb))
      (broadcast ⟨2, ![M, H1]⟩ (Scalar.ofBits (F := Ideal) .f32 0x00000000#32))
    = hidden x W (rowOf B) := by
  subst hd
  funext i
  show max (FloatOps.matmul (DotDims.plain M D H1) none x W (constant ⟨2, ![M, H1]⟩ .f32 0x00000000#32) i
      + broadcastTo ⟨2, ![M, H1]⟩ (shapeCast ⟨2, ![1, H1]⟩ B hs) hb i) (Ideal.ofBits .f32 0x00000000#32) = _
  rw [matmul_zero_plain, bias_block, Ideal.ofBits_zero_f32]
  rfl

/-- The last layer on a block: a product into the zero accumulator and the one-row bias repeated down the rows. -/
theorem block_affine {φx φ1 : FTy} (d : DotDims ⟨2, ![M, D]⟩ ⟨2, ![D, N]⟩ ⟨2, ![M, N]⟩) (hd : d = DotDims.plain M D N)
    (x : FVec Ideal ⟨2, ![M, D]⟩ φx) (W : FVec Ideal ⟨2, ![D, N]⟩ φ1) (B : FVec Ideal ⟨2, ![1, N]⟩ .f32)
    (hs : (⟨2, ![1, N]⟩ : Shape).ShapeCasts ⟨2, ![1, N]⟩) (hb : (⟨2, ![1, N]⟩ : Shape).Broadcasts ⟨2, ![M, N]⟩) :
    addf (matmul d none x W (constant ⟨2, ![M, N]⟩ .f32 0x00000000#32))
        (broadcastTo ⟨2, ![M, N]⟩ (shapeCast ⟨2, ![1, N]⟩ B hs) hb)
    = fun j => rowsByCols x W j + rowOf B (ix1 (j 1)) := by
  subst hd
  funext j
  show FloatOps.matmul (DotDims.plain M D N) none x W (constant ⟨2, ![M, N]⟩ .f32 0x00000000#32) j
      + broadcastTo ⟨2, ![M, N]⟩ (shapeCast ⟨2, ![1, N]⟩ B hs) hb j = _
  rw [matmul_zero_plain, bias_block]

/-- The rows of a block divided by their lengths: the squares summed along the lanes, the sums turned into a column,
    the square root, the maximum with `eps`, the column repeated along the lanes, the quotient. -/
theorem block_unitRows (z : FVec Ideal ⟨2, ![M, N]⟩ .f32) (eps : BitVec 32)
    (hr : (⟨2, ![M, N]⟩ : Shape).Reduces [(1 : Fin 2)] ⟨1, ![M]⟩) (hc : (⟨1, ![M]⟩ : Shape).ShapeCasts ⟨2, ![M, 1]⟩)
    (hb : (⟨2, ![M, 1]⟩ : Shape).Broadcasts ⟨2, ![M, N]⟩) :
    divf z (broadcastTo ⟨2, ![M, N]⟩
        (maximumf (sqrt (shapeCast ⟨2, ![M, 1]⟩
            (multiReduction .add [(1 : Fin 2)] ⟨1, ![M]⟩ (mulf z z) 0x00000000#32 hr (.inl rfl) rfl) hc))
          (broadcast ⟨2, ![M, 1]⟩ (Scalar.ofBits (F := Ideal) .f32 eps))) hb)
    = unitRows (Ideal.ofBits .f32 eps) z := by
  funext i
  obtain ⟨r, c, rfl⟩ : ∃ (r : Fin M) (c : Fin N), i = ix2 r c := ⟨i 0, i 1, eq_ix2 i⟩
  rw [divf_apply, Cert.LibLayout.broadcastTo_a1_ab_apply, maximumf_apply, broadcast_apply, unitRows_apply]
  show Ideal.div (z (ix2 r c)) (max (Ideal.sqrt (shapeCast ⟨2, ![M, 1]⟩
      (multiReduction .add [(1 : Fin 2)] ⟨1, ![M]⟩ (mulf z z) 0x00000000#32 hr (.inl rfl) rfl) hc (ix2 r (0 : Fin 1))))
      (Ideal.ofBits .f32 eps)) = _
  rw [Cert.LibLayout.shapeCast_a_a1_apply]
  exact congrArg (fun s => Ideal.div (z (ix2 r c)) (max (Ideal.sqrt s) (Ideal.ofBits .f32 eps)))
    (Cert.LibRows.rowSum_apply (mulf z z) 0x00000000#32 hr (.inl rfl) rfl r)

/-! ## The host spelling: general dot products, broadcasts along named axes -/

/-- One hidden layer as the host spells it. -/
theorem host_hidden {φx φ1 : FTy} (d : DotDims ⟨2, ![M, D]⟩ ⟨2, ![D, H1]⟩ ⟨2, ![M, H1]⟩) (hd : d = DotDims.plain M D H1)
    (x : FVec Ideal ⟨2, ![M, D]⟩ φx) (W : FVec Ideal ⟨2, ![D, H1]⟩ φ1) (b : FVec Ideal ⟨1, ![H1]⟩ .f32)
    (h1 : (⟨1, ![H1]⟩ : Shape).BroadcastsInDim ⟨2, ![1, H1]⟩ (![1] : Fin 1 → Fin 2))
    (h2 : (⟨2, ![1, H1]⟩ : Shape).BroadcastsInDim ⟨2, ![M, H1]⟩ (![0, 1] : Fin 2 → Fin 2))
    (h0 : (⟨0, ![]⟩ : Shape).BroadcastsInDim ⟨2, ![M, H1]⟩ (![] : Fin 0 → Fin 2)) :
    maximumf (addf (Host.dotGeneral d none x W)
        (broadcastInDim ⟨2, ![M, H1]⟩ ![0, 1] h2 (broadcastInDim ⟨2, ![1, H1]⟩ ![1] h1 b)))
      (broadcastInDim ⟨2, ![M, H1]⟩ ![] h0 (constant (F := Ideal) ⟨0, ![]⟩ .f32 0x00000000#32))
    = hidden x W b := by
  subst hd
  funext i
  show max (FloatOps.dotGeneral (DotDims.plain M D H1) none .single x W i
      + broadcastInDim ⟨2, ![M, H1]⟩ ![0, 1] h2 (broadcastInDim ⟨2, ![1, H1]⟩ ![1] h1 b) i)
      (Ideal.ofBits .f32 0x00000000#32) = _
  rw [dotGeneral_plain, bias_inDim, Ideal.ofBits_zero_f32]
  rfl

/-- The last layer as the host spells it. -/
theorem host_affine {φx φ1 : FTy} (d : DotDims ⟨2, ![M, D]⟩ ⟨2, ![D, N]⟩ ⟨2, ![M, N]⟩) (hd : d = DotDims.plain M D N)
    (x : FVec Ideal ⟨2, ![M, D]⟩ φx) (W : FVec Ideal ⟨2, ![D, N]⟩ φ1) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral d none x W)
        (broadcastInDim ⟨2, ![M, N]⟩ ![0, 1] h2 (broadcastInDim ⟨2, ![1, N]⟩ ![1] h1 b))
    = fun j => rowsByCols x W j + b (ix1 (j 1)) := by
  subst hd
  funext j
  show FloatOps.dotGeneral (DotDims.plain M D N) none .single x W j
      + broadcastInDim ⟨2, ![M, N]⟩ ![0, 1] h2 (broadcastInDim ⟨2, ![1, N]⟩ ![1] h1 b) j = _
  rw [dotGeneral_plain, bias_inDim]

/-- The three layers unfolded to their last affine map. -/
theorem mlp_eq (x : FVec Ideal ⟨2, ![M, D]⟩ .f32) (W1 : FVec Ideal ⟨2, ![D, H1]⟩ .f32) (b1 : FVec Ideal ⟨1, ![H1]⟩ .f32)
    (W2 : FVec Ideal ⟨2, ![H1, H2]⟩ .f32) (b2 : FVec Ideal ⟨1, ![H2]⟩ .f32)
    (W3 : FVec Ideal ⟨2, ![H2, N]⟩ .f32) (b3 : FVec Ideal ⟨1, ![N]⟩ .f32) :
    mlp x W1 b1 W2 b2 W3 b3 = fun j => rowsByCols (hidden (hidden x W1 b1) W2 b2) W3 j + b3 (ix1 (j 1)) := rfl

/-- Dividing by the word of `1.0` changes nothing. -/
theorem div_one_word (a : EReal) : Ideal.div a (Ideal.ofBits .f32 0x3F800000#32) = a := by
  have h1 : Ideal.ofBits .f32 0x3F800000#32 = 1 := by
    simp [Ideal.ofBits, Ideal.ieee, -EReal.coe_mul]; norm_num
  rw [h1, ← EReal.coe_one, Ideal.div_coe one_ne_zero, div_one, EReal.coe_one, mul_one]

end Cert.Encoder

end
-- ==== Proof.KernelBody.lean ====
/-
  What the first kernel body stores, as a function of the blocks it loads.

  The body multiplies its block of input rows by the first weight matrix into a zero accumulator, adds the first bias
  (held as a one-row array and repeated down the rows), takes the maximum with zero, and does the same with the second
  weight matrix and bias; a third product and bias give the rows `z`, which are divided by the larger of their Euclidean
  length and `eps`. The changes of float format in between are the identity on the extended reals. So the stored block
  is the encoder of the specification applied to the loaded rows.
-/
import proofs.«171205_j37538014167585_2_alg».proof.Proof.Gen.KernelIdeal.Skeleton
import proofs.«171205_j37538014167585_2_alg».proof.Proof.LibEncoderGram

noncomputable section

namespace Cert.KernelIdeal.Body

open Cert.KernelIdeal Cert.KernelIdeal.Gen Idealize.ShloMosaic Idealize.ShloMosaic.ValueIdx
open Cert.Encoder Cert.Perceptron Idealize.ShloMosaic.PlainProduct

/-- The block the first body stores is the encoder of the rows it loads. -/
theorem stored_eq_encode (x : Vec Ideal S1024x64 .f32) (W1 : Vec Ideal S64x512 .f32) (B1 : Vec Ideal S1x512 .f32)
    (W2 : Vec Ideal S512x512 .f32) (B2 : Vec Ideal S1x512 .f32) (W3 : Vec Ideal S512x128 .f32) (B3 : Vec Ideal S1x128 .f32) :
    k0_pay1 (F := Ideal) (k0_pay2 x W1 B1 W2 B2 W3 B3)
      = encode (Ideal.ofBits .f32 0x2B8CBCCC#32) x W1 (rowOf B1) W2 (rowOf B2) W3 (rowOf B3) := by
  unfold k0_pay1 k0_pay2
  dsimp only
  rw [shapeCast_self x,
    block_hidden dot_S1024x64_S64x512_S1024x512_1_0_0_1_n_n rfl,
    block_hidden dot_S1024x512_S512x512_S1024x512_1_0_0_1_n_n rfl,
    block_affine dot_S1024x512_S512x128_S1024x128_1_0_0_1_n_n rfl,
    block_unitRows]
  rfl

end Cert.KernelIdeal.Body

end
-- ==== Proof.Region0.lean ====
/-
  What the first region leaves in its output array, for any contents `V` of the buffers when it is entered.

  The grid has sixteen points. Point `t` loads rows `1024·t … 1024·t + 1023` of the stacked input `[16384, 64]`, the three
  weight matrices and the three one-row biases whole, and writes back rows `1024·t … 1024·t + 1023` of the output
  `[16384, 128]`. What it writes is the encoder applied to the loaded rows, and row `r` of the encoder depends on row `r` of its
  input only, so the written block is that block of rows of the encoder applied to the whole stacked input. The sixteen
  blocks cover the output, which therefore ends holding the encoder of the stacked input.
-/
import proofs.«171205_j37538014167585_2_alg».proof.Proof.Gen.KernelIdeal.Frame
import proofs.«171205_j37538014167585_2_alg».proof.Proof.KernelBody
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Encoder
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The block indices over the grid: the input rows move with the output rows, every other block index is zero, and
    the output's row-block index stays below sixteen. -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) ≤ 15
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block of rows of the output is some point's. -/
theorem idx_onto : ∀ q : Fin 16, ∃ t : Fin cfg0.N, win0_7.index t = ![q.val, 0] :=
  (by decide +kernel : ∀ q : Fin 16, ∃ t : Fin grid0.N, win0_7.index t = ![q.val, 0])

/-- The row of the arrays that row `r` of point `t`'s blocks is: `1024·(block index) + r`. -/
def rowAt (t : Fin cfg0.N) (r : Fin 1024) : Fin 16384 :=
  ⟨win0_7.index t (0 : Fin 2) * 1024 + r.val, by have := (idx_facts t).2.2.2.1; have := r.isLt; omega⟩

/-- An entry `(r, q)` of the output block sits in the output array at `(rowAt t r, q)`. -/
theorem emb_out (t : Fin cfg0.N) (y : S1024x128.Idx) :
    ((cfg0.win 7).blk t).view.emb y = ix2 (rowAt t (y 0)) (y 1) := by
  obtain ⟨e0, e1, e2, e3, -⟩ := idx_facts t
  funext a; apply Fin.ext
  match a with
  | ⟨0, _⟩ =>
    show win0_7.index t (0 : Fin 2) * 1024 + 1 * (y 0).val = win0_7.index t (0 : Fin 2) * 1024 + (y 0).val
    omega
  | ⟨1, _⟩ =>
    show win0_7.index t (1 : Fin 2) * 128 + 1 * (y 1).val = (y 1).val
    omega

/-- The input block at point `t` holds rows `rowAt t r` of the stacked input. -/
theorem read_rows (c : Dev nD) (t : Fin cfg0.N) (r : Fin 1024) (k : Fin 64) :
    iblk0 V c 0 t (ix2 r k) = V c main_v0 (ix2 (rowAt t r) k) := by
  obtain ⟨e0, e1, e2, e3, -⟩ := idx_facts t
  show V c main_v0 (((cfg0.win 0).blk t).view.emb (ix2 r k)) = V c main_v0 (ix2 (rowAt t r) k)
  refine congrArg (V c main_v0) ?_
  funext a; apply Fin.ext
  match a with
  | ⟨0, _⟩ =>
    show win0_0.index t (0 : Fin 2) * 1024 + 1 * r.val = win0_7.index t (0 : Fin 2) * 1024 + r.val
    omega
  | ⟨1, _⟩ =>
    show win0_0.index t (1 : Fin 2) * 64 + 1 * k.val = k.val
    omega

/-- The six other windows' blocks are their whole arrays. -/
theorem read_W1 (c : Dev nD) (t : Fin cfg0.N) : iblk0 V c 1 t = V c main_arg2 := by
  obtain ⟨-, -, -, -, e0, e1, -⟩ := idx_facts t
  funext j
  show V c main_arg2 (((cfg0.win 1).blk t).view.emb j) = V c main_arg2 j
  refine congrArg (V c main_arg2) ?_
  funext a; apply Fin.ext
  match a with
  | ⟨0, _⟩ => show win0_1.index t (0 : Fin 2) * 64 + 1 * (j 0).val = (j 0).val; omega
  | ⟨1, _⟩ => show win0_1.index t (1 : Fin 2) * 512 + 1 * (j 1).val = (j 1).val; omega
theorem read_B1 (c : Dev nD) (t : Fin cfg0.N) : iblk0 V c 2 t = V c main_v1 := by
  obtain ⟨-, -, -, -, -, -, e0, e1, -⟩ := idx_facts t
  funext j
  show V c main_v1 (((cfg0.win 2).blk t).view.emb j) = V c main_v1 j
  refine congrArg (V c main_v1) ?_
  funext a; apply Fin.ext
  match a with
  | ⟨0, _⟩ => show win0_2.index t (0 : Fin 2) * 1 + 1 * (j 0).val = (j 0).val; omega
  | ⟨1, _⟩ => show win0_2.index t (1 : Fin 2) * 512 + 1 * (j 1).val = (j 1).val; omega
theorem read_W2 (c : Dev nD) (t : Fin cfg0.N) : iblk0 V c 3 t = V c main_arg4 := by
  obtain ⟨-, -, -, -, -, -, -, -, e0, e1, -⟩ := idx_facts t
  funext j
  show V c main_arg4 (((cfg0.win 3).blk t).view.emb j) = V c main_arg4 j
  refine congrArg (V c main_arg4) ?_
  funext a; apply Fin.ext
  match a with
  | ⟨0, _⟩ => show win0_3.index t (0 : Fin 2) * 512 + 1 * (j 0).val = (j 0).val; omega
  | ⟨1, _⟩ => show win0_3.index t (1 : Fin 2) * 512 + 1 * (j 1).val = (j 1).val; omega
theorem read_B2 (c : Dev nD) (t : Fin cfg0.N) : iblk0 V c 4 t = V c main_v2 := by
  obtain ⟨-, -, -, -, -, -, -, -, -, -, e0, e1, -⟩ := idx_facts t
  funext j
  show V c main_v2 (((cfg0.win 4).blk t).view.emb j) = V c main_v2 j
  refine congrArg (V c main_v2) ?_
  funext a; apply Fin.ext
  match a with
  | ⟨0, _⟩ => show win0_4.index t (0 : Fin 2) * 1 + 1 * (j 0).val = (j 0).val; omega
  | ⟨1, _⟩ => show win0_4.index t (1 : Fin 2) * 512 + 1 * (j 1).val = (j 1).val; omega
theorem read_W3 (c : Dev nD) (t : Fin cfg0.N) : iblk0 V c 5 t = V c main_arg6 := by
  obtain ⟨-, -, -, -, -, -, -, -, -, -, -, -, e0, e1, -⟩ := idx_facts t
  funext j
  show V c main_arg6 (((cfg0.win 5).blk t).view.emb j) = V c main_arg6 j
  refine congrArg (V c main_arg6) ?_
  funext a; apply Fin.ext
  match a with
  | ⟨0, _⟩ => show win0_5.index t (0 : Fin 2) * 512 + 1 * (j 0).val = (j 0).val; omega
  | ⟨1, _⟩ => show win0_5.index t (1 : Fin 2) * 128 + 1 * (j 1).val = (j 1).val; omega
theorem read_B3 (c : Dev nD) (t : Fin cfg0.N) : iblk0 V c 6 t = V c main_v3 := by
  obtain ⟨-, -, -, -, -, -, -, -, -, -, -, -, -, -, e0, e1⟩ := idx_facts t
  funext j
  show V c main_v3 (((cfg0.win 6).blk t).view.emb j) = V c main_v3 j
  refine congrArg (V c main_v3) ?_
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- The encoder of the stacked input as the region finds it: what the output array ends holding. -/
abbrev encoded (c : Dev nD) : S16384x128.Idx → Elt Ideal .bf16 :=
  encode (Ideal.ofBits .f32 0x2B8CBCCC#32) (V c main_v0 : S16384x64.Idx → Elt Ideal .f32)
    (V c main_arg2 : S64x512.Idx → Elt Ideal .f32) (rowOf (V c main_v1 : S1x512.Idx → Elt Ideal .f32))
    (V c main_arg4 : S512x512.Idx → Elt Ideal .f32) (rowOf (V c main_v2 : S1x512.Idx → Elt Ideal .f32))
    (V c main_arg6 : S512x128.Idx → Elt Ideal .f32) (rowOf (V c main_v3 : S1x128.Idx → Elt Ideal .f32))

/-- What point `t` writes back is its block of rows of `encoded`. -/
theorem wrote0 (c : Dev nD) (t : Fin cfg0.N) :
    (dat0 V c).flushed 7 t = ((cfg0.win 7).blk t).view.read (Elt Ideal) (encoded V c) := by
  show (cfg0.win 7).cut (grid0.coords t) ((dat0 V c).after 7 t) = _
  rw [after0_7]
  unfold out0_7
  rw [View.canon_unit_zero offsets_zero]
  simp only [View.ld_unit_zero (S := S1024x64) offsets_zero, View.ld_unit_zero (S := S64x512) offsets_zero,
    View.ld_unit_zero (S := S1x512) offsets_zero, View.ld_unit_zero (S := S512x512) offsets_zero,
    View.ld_unit_zero (S := S512x128) offsets_zero, View.ld_unit_zero (S := S1x128) offsets_zero]
  rw [Body.stored_eq_encode, read_W1, read_B1, read_W2, read_B2, read_W3, read_B3]
  funext y
  show encode (Ideal.ofBits .f32 0x2B8CBCCC#32) (iblk0 V c 0 t) (V c main_arg2) (rowOf (V c main_v1)) (V c main_arg4)
      (rowOf (V c main_v2)) (V c main_arg6) (rowOf (V c main_v3)) y
    = encoded V c (((cfg0.win 7).blk t).view.emb y)
  rw [emb_out t y]
  exact encode_rows (Ideal.ofBits .f32 0x2B8CBCCC#32) (V c main_v0) (V c main_arg2) (rowOf (V c main_v1)) (V c main_arg4)
    (rowOf (V c main_v2)) (V c main_arg6) (rowOf (V c main_v3)) (iblk0 V c 0 t) (rowAt t) (read_rows V c t) y

/-- An index of the output is in point `t`'s block iff each coordinate is in the block's range on its axis. -/
theorem mem_blk (t : Fin cfg0.N) (i : S16384x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v4).slice (win0_7.rect t)).set ↔ _
  rw [View.set_slice_whole, Rect.mem_set_unit]
  exact Iff.rfl

/-- The sixteen blocks cover the output: row `r` is in the block of the point whose block index is `r / 1024`. -/
theorem cover0 (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  obtain ⟨t, ht⟩ := idx_onto ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 128 ≤ (i 1).val ∧ (i 1).val < win0_7.index t (1 : Fin 2) * 128 + 128
    omega

/-- The output array after the region: the encoder of the stacked input. -/
theorem final0 (c : Dev nD) : (dat0 V c).arrAt 7 cfg0.N = encoded V c :=
  (dat0 V c).arrAt_eq_of_cover 7 _ (fun t _ => wrote0 V c t) cover0

end Cert.KernelIdeal.Region0

end
-- ==== Proof.Region1.lean ====
/-
  The second region: rows against rows, block by block.

  The region walks an 8 × 4 grid. At point (i, j) it holds rows 1024·i … 1024·i + 1023 of the first array (8192 × 128),
  rows 2048·j … 2048·j + 2047 of the second array (8192 × 128), multiplies every held row of the first with every held
  row of the second, sum over the 128 positions, starting from zero, and writes the 1024 × 2048 products to the
  rectangle of the result (8192 × 8192) whose corner is (1024·i, 2048·j). Entry (r, s) of that rectangle is therefore
  row 1024·i + r of the first array against row 2048·j + s of the second: the entry of the whole 8192 × 8192 table of
  rows against rows at the place where it is written. The 32 rectangles tile the result, so the result ends as that
  table, whatever the two arrays hold.
-/
import proofs.«171205_j37538014167585_2_alg».proof.Proof.Gen.KernelIdeal.Frame
import proofs.«171205_j37538014167585_2_alg».proof.Proof.LibEncoderGram
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

/-! ## One block: 1024 rows against 2048 rows -/

/-- The two offsets of a whole-block access are zero. -/
theorem zero_offsets : (![0, 0] : Fin 2 → Nat) = fun _ => 0 := funext fun a => by fin_cases a <;> rfl

/-- The body's arithmetic on its two blocks: entry (r, s) is row r of the first block against row s of the second,
    summed over the 128 positions from zero. -/
theorem pay1_eq (a : Vec Ideal S1024x128 .bf16) (b : Vec Ideal S2048x128 .bf16) :
    k1_pay1 (F := Ideal) a b = Cert.Encoder.gram (φ := .bf16) (ψ := .bf16) a b := by
  unfold k1_pay1
  simp only [shapeCast_self]
  exact Cert.Encoder.matmul_zero_gram (φ := .bf16) (ψ := .bf16) dot_S1024x128_S2048x128_S1024x2048_1_1_0_0_n_n rfl none a b

/-! ## Where the blocks sit -/

/-- At every grid point the first array's block has the result block's row index, the second array's block has the
    result block's column index as ITS row index, neither moves along the 128 positions, and the result's block
    indices stay below 8 and 4. -/
theorem index_facts : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7 ∧ win1_2.index t (1 : Fin 2) ≤ 3 :=
  (by decide +kernel : ∀ t : Fin grid1.N, _)

/-- Every one of the 8 × 4 result blocks is some grid point's. -/
theorem index_onto : ∀ (q0 : Fin 8) (q1 : Fin 4), ∃ t : Fin cfg1.N, win1_2.index t = ![q0.val, q1.val] :=
  (by decide +kernel : ∀ (q0 : Fin 8) (q1 : Fin 4), ∃ t : Fin grid1.N, win1_2.index t = ![q0.val, q1.val])

section Entry

variable (V : (c : Dev nD) → (b : Ref sig .tc) → Buf (Elt Ideal) ((c : Thread nD τ).loc b))

/-- Entry (r, k) of the first array's block at a grid point is entry (1024·i + r, k) of the first array, i the row
    index of the result's block there. -/
theorem rows_block_apply (c : Dev nD) (t : Fin cfg1.N) (x : S1024x128.Idx) (k : S8192x128.Idx)
    (hk0 : (k 0).val = win1_2.index t (0 : Fin 2) * 1024 + (x 0).val) (hk1 : (k 1).val = (x 1).val) :
    (iblk1 V c 0 t : Vec Ideal S1024x128 .bf16) x = (V c main_v5 : S8192x128.Idx → Elt Ideal .bf16) k := by
  obtain ⟨e0, e1, e2, e3, e4, e5⟩ := index_facts t
  unfold iblk1
  rw [View.read_apply]
  show V c main_v5 (((cfg1.win 0).blk t).view.emb x) = V c main_v5 k
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 128 + 1 * (x 1).val = (k 1).val; rw [e1, hk1]; omega

/-- Entry (s, k) of the second array's block at a grid point is entry (2048·j + s, k) of the second array, j the
    column index of the result's block there. -/
theorem cols_block_apply (c : Dev nD) (t : Fin cfg1.N) (x : S2048x128.Idx) (k : S8192x128.Idx)
    (hk0 : (k 0).val = win1_2.index t (1 : Fin 2) * 2048 + (x 0).val) (hk1 : (k 1).val = (x 1).val) :
    (iblk1 V c 1 t : Vec Ideal S2048x128 .bf16) x = (V c main_v6 : S8192x128.Idx → Elt Ideal .bf16) k := by
  obtain ⟨e0, e1, e2, e3, e4, e5⟩ := index_facts t
  unfold iblk1
  rw [View.read_apply]
  show V c main_v6 (((cfg1.win 1).blk t).view.emb x) = V c main_v6 k
  congr 1
  funext a
  apply Fin.ext
  match a with
  | ⟨0, _⟩ => show win1_1.index t (0 : Fin 2) * 2048 + 1 * (x 0).val = (k 0).val; rw [e2, hk0]; omega
  | ⟨1, _⟩ => show win1_1.index t (1 : Fin 2) * 128 + 1 * (x 1).val = (k 1).val; rw [e3, hk1]; omega

/-! ## What a grid point writes back -/

/-- What a grid point writes back is its rectangle of the 8192 × 8192 table of rows of the first array against rows of
    the second: in the rectangle with corner (1024·i, 2048·j), entry (r, s) is row r of the held rows of the first array,
    which is its row 1024·i + r, against row s of the held rows of the second, which is its row 2048·j + s. -/
theorem wrote1 (c : Dev nD) (t : Fin cfg1.N) :
    (dat1 V c).flushed 2 t = ((cfg1.win 2).blk t).view.read (Elt Ideal)
      (Cert.Encoder.gram (φ := .bf16) (ψ := .bf16) (V c main_v5 : S8192x128.Idx → Elt Ideal .bf16)
        (V c main_v6 : S8192x128.Idx → Elt Ideal .bf16)) := by
  show (cfg1.win 2).cut (grid1.coords t) ((dat1 V c).after 2 t) = _
  rw [after1_2]
  unfold out1_2
  rw [View.canon_unit_zero zero_offsets]
  simp only [View.ld_unit_zero (S := S1024x128) zero_offsets, View.ld_unit_zero (S := S2048x128) zero_offsets]
  rw [pay1_eq]
  obtain ⟨e0, e1, e2, e3, e4, e5⟩ := index_facts t
  funext y
  show Cert.Encoder.gram (φ := .bf16) (ψ := .bf16) (iblk1 V c 0 t : Vec Ideal S1024x128 .bf16)
        (iblk1 V c 1 t : Vec Ideal S2048x128 .bf16) y
      = Cert.Encoder.gram (φ := .bf16) (ψ := .bf16) (V c main_v5 : S8192x128.Idx → Elt Ideal .bf16)
        (V c main_v6 : S8192x128.Idx → Elt Ideal .bf16) (((cfg1.win 2).blk t).view.emb y)
  refine (Cert.Encoder.gram_rows (φ := .bf16) (ψ := .bf16) (V c main_v5 : S8192x128.Idx → Elt Ideal .bf16)
      (V c main_v6 : S8192x128.Idx → Elt Ideal .bf16) (iblk1 V c 0 t : Vec Ideal S1024x128 .bf16)
      (iblk1 V c 1 t : Vec Ideal S2048x128 .bf16)
      (fun r => ⟨win1_2.index t (0 : Fin 2) * 1024 + r.val, by have := r.isLt; omega⟩)
      (fun r => ⟨win1_2.index t (1 : Fin 2) * 2048 + r.val, by have := r.isLt; omega⟩)
      (fun r k => rows_block_apply V c t _ _ rfl rfl) (fun r k => cols_block_apply V c t _ _ rfl rfl) y).trans ?_
  congr 1
  funext a
  apply Fin.ext
  match a with
  | ⟨0, _⟩ => show win1_2.index t (0 : Fin 2) * 1024 + (y 0).val = win1_2.index t (0 : Fin 2) * 1024 + 1 * (y 0).val; omega
  | ⟨1, _⟩ => show win1_2.index t (1 : Fin 2) * 2048 + (y 1).val = win1_2.index t (1 : Fin 2) * 2048 + 1 * (y 1).val; omega

/-! ## The rectangles tile the result -/

/-- An entry of the result is in a grid point's rectangle iff, on each axis, its coordinate is in the rectangle's
    range: 1024 rows from 1024·i, 2048 columns from 2048·j. -/
theorem mem_block (t : Fin cfg1.N) (i : S8192x8192.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v7).slice (win1_2.rect t)).set ↔ _
  rw [View.set_slice_whole, Rect.mem_set_unit]
  exact Iff.rfl

/-- Entry (r, s) of the result is in the rectangle of the grid point whose block index is (r / 1024, s / 2048), and
    every grid point writes its rectangle back. -/
theorem cover1 : ∀ i : S8192x8192.Idx, ∃ t : Fin cfg1.N, (cfg1.win 2).flush t = true ∧ i ∈ ((cfg1.win 2).blk t).view.set := by
  intro i
  have hi0 : (i 0).val < 8192 := (i 0).isLt
  have hi1 : (i 1).val < 8192 := (i 1).isLt
  obtain ⟨t, ht⟩ := index_onto ⟨(i 0).val / 1024, by omega⟩ ⟨(i 1).val / 2048, by omega⟩
  have q0 : win1_2.index t (0 : Fin 2) = (i 0).val / 1024 := congrFun ht 0
  have q1 : win1_2.index t (1 : Fin 2) = (i 1).val / 2048 := congrFun ht 1
  refine ⟨t, flush1_2 t, ?_⟩
  rw [mem_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-! ## The result -/

/-- After the region the result holds, at (r, s), row r of the first array against row s of the second. -/
theorem final1 (c : Dev nD) :
    (dat1 V c).arrAt 2 cfg1.N = Cert.Encoder.gram (φ := .bf16) (ψ := .bf16) (V c main_v5 : S8192x128.Idx → Elt Ideal .bf16)
      (V c main_v6 : S8192x128.Idx → Elt Ideal .bf16) :=
  (dat1 V c).arrAt_eq_of_cover 2 _ (fun t _ => wrote1 V c t) cover1

end Entry

end Cert.KernelIdeal.Region1

end
-- ==== Proof.KernelValue.lean ====
/-
  The idealized kernel's result array as the specification's function of its arguments.

  The first region is entered with the two inputs stacked, `[x; y]`, and the three biases laid out as one-row arrays; it
  leaves the encoder of the stack. Row `r` of the encoder depends on row `r` of its input only, so the first `8192` rows of
  that array are the encoder of `x` and the last `8192` the encoder of `y`: the two slices the second region reads. The
  second region leaves every row of the first against every row of the second, `∑ k, a (i, k) · b (j, k)`.
-/
import proofs.«171205_j37538014167585_2_alg».proof.Proof.HostGlue
import proofs.«171205_j37538014167585_2_alg».proof.Proof.Region0
import proofs.«171205_j37538014167585_2_alg».proof.Proof.Region1
import proofs.«171205_j37538014167585_2_alg».proof.Proof.LibEncoderGram

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.Encoder

variable (m : (ℓ : Loc nD τ sig) → Buf (Elt Ideal) ℓ) (ρ : Dev nD → PrngReg)

/-- The one row of a vector laid out as a `[1, K]` array is the vector. -/
theorem rowOf_eq {K : Nat} (B : FVec Ideal ⟨2, ![1, K]⟩ .f32) (b : FVec Ideal ⟨1, ![K]⟩ .f32)
    (h : ∀ k : Fin K, B (ix2 (0 : Fin 1) k) = b (ix1 k)) : rowOf B = b := by
  funext i
  rw [eq_ix1 i]
  exact h (i 0)

/-- The stacked input's encoder, as the first region finds its operands, is the encoder with the launch arguments'
    weights and biases. -/
theorem encoded_eq (c : Dev nD) :
    Region0.encoded (V1 m ρ) c
      = encode (Ideal.ofBits .f32 0x2B8CBCCC#32) (V1 m ρ c main_v0 : S16384x64.Idx → Elt Ideal .f32)
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  unfold Region0.encoded
  rw [HostGlue.V1_arg2 m ρ c, HostGlue.V1_arg4 m ρ c, HostGlue.V1_arg6 m ρ c,
    rowOf_eq _ (m ((c : Thread nD τ).loc main_arg3)) (HostGlue.V1_v1 m ρ c),
    rowOf_eq _ (m ((c : Thread nD τ).loc main_arg5)) (HostGlue.V1_v2 m ρ c),
    rowOf_eq _ (m ((c : Thread nD τ).loc main_arg7)) (HostGlue.V1_v3 m ρ c)]

/-- The first slice the second region reads: the encoder of the first input. -/
theorem first_rows (c : Dev nD) (r : Fin 8192) (k : Fin 128) :
    V3 m ρ c main_v5 (ix2 r k)
      = encode (Ideal.ofBits .f32 0x2B8CBCCC#32) (m ((c : Thread nD τ).loc main_arg0))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (ix2 r k) := by
  rw [HostGlue.V3_v5 m ρ c r k, HostGlue.W2_v4 m ρ c, Region0.final0 (V1 m ρ) c, encoded_eq m ρ c]
  exact (encode_rows (Ideal.ofBits .f32 0x2B8CBCCC#32) (V1 m ρ c main_v0 : S16384x64.Idx → Elt Ideal .f32)
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg0)) (fun r => (⟨r.val, by omega⟩ : Fin 16384))
    (fun r k => (HostGlue.V1_v0_left m ρ c r k).symm) (ix2 r k)).symm

/-- The second slice: the encoder of the second input. -/
theorem last_rows (c : Dev nD) (r : Fin 8192) (k : Fin 128) :
    V3 m ρ c main_v6 (ix2 r k)
      = encode (Ideal.ofBits .f32 0x2B8CBCCC#32) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (ix2 r k) := by
  rw [HostGlue.V3_v6 m ρ c r k, HostGlue.W2_v4 m ρ c, Region0.final0 (V1 m ρ) c, encoded_eq m ρ c]
  exact (encode_rows (Ideal.ofBits .f32 0x2B8CBCCC#32) (V1 m ρ c main_v0 : S16384x64.Idx → Elt Ideal .f32)
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg1)) (fun r => (⟨8192 + r.val, by omega⟩ : Fin 16384))
    (fun r k => (HostGlue.V1_v0_right m ρ c r k).symm) (ix2 r k)).symm

/-- THE RESULT: every encoded row of the first input against every encoded row of the second. -/
theorem result_eq (c : Dev nD) :
    W4 m ρ c (Proc.devRef .tc main_v7)
      = gram
          (encode (Ideal.ofBits .f32 0x2B8CBCCC#32) (m ((c : Thread nD τ).loc main_arg0))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7)))
          (encode (Ideal.ofBits .f32 0x2B8CBCCC#32) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))) := by
  rw [HostGlue.W4_v7 m ρ c, Region1.final1 (V3 m ρ) c]
  funext i
  exact Finset.sum_congr rfl fun k _ =>
    congrArg₂ (fun p q => p * q) (first_rows m ρ c (i 0) k) (last_rows m ρ c (i 1) k)

end Cert.KernelIdeal.KernelValue

end
-- ==== Proof.RefValue.lean ====
/-
  The reference program's result as the function of the specification.

  The program sends each of two `8192 × 64` arrays through the same three affine layers (`max · 0` after the first
  two), divides every row of the two `8192 × 128` results by the larger of its Euclidean length and a small positive
  constant, multiplies the rows of the first against the rows of the second, and divides by one. Stage by stage this
  is `mlp`, then `encode`, then `gram` of the two encoded arrays.
-/
import proofs.«171205_j37538014167585_2_alg».proof.Proof.Gen.ReferenceIdeal.Read
import proofs.«171205_j37538014167585_2_alg».proof.Proof.LibEncoderGram
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 : (⟨S8192x64, .f32⟩ : BufTy).Contents (Elt Ideal)) (x2 : (⟨S64x512, .f32⟩ : BufTy).Contents (Elt Ideal))
  (x3 : (⟨S512, .f32⟩ : BufTy).Contents (Elt Ideal)) (x4 : (⟨S512x512, .f32⟩ : BufTy).Contents (Elt Ideal))
  (x5 : (⟨S512, .f32⟩ : BufTy).Contents (Elt Ideal)) (x6 : (⟨S512x128, .f32⟩ : BufTy).Contents (Elt Ideal))
  (x7 : (⟨S128, .f32⟩ : BufTy).Contents (Elt Ideal))

/-! ## The three layers -/

/-- Two hidden layers and the last affine map, each a general dot product plus its bias broadcast along the rows. -/
theorem layers_eq :
    val_main_v13 (F := Ideal) x0 x2 x3 x4 x5 x6 x7 = Cert.Encoder.mlp x0 x2 x3 x4 x5 x6 x7 := by
  unfold val_main_v13 val_main_v12 val_main_v11 val_main_v10 val_main_v9 val_main_call1_v0 val_main_call1_cst val_main_v8
    val_main_v7 val_main_v6 val_main_v5 val_main_v4 val_main_call0_v0 val_main_call0_cst val_main_v3 val_main_v2 val_main_v1
    val_main_v0
  rw [Cert.Encoder.host_hidden dot_S8192x64_S64x512_S8192x512_1_0_0_1_n_n rfl,
    Cert.Encoder.host_hidden dot_S8192x512_S512x512_S8192x512_1_0_0_1_n_n rfl,
    Cert.Encoder.host_affine dot_S8192x512_S512x128_S8192x128_1_0_0_1_n_n rfl]
  rfl

/-- The second array goes through the same operations. -/
theorem layers_eq' :
    val_main_v35 (F := Ideal) x1 x2 x3 x4 x5 x6 x7 = Cert.Encoder.mlp x1 x2 x3 x4 x5 x6 x7 :=
  layers_eq x1 x2 x3 x4 x5 x6 x7

/-! ## Rows divided by their length -/

/-- Entry `(r, c)` of the normalised array is entry `(r, c)` of the three layers divided by the larger of
    `sqrt (0 + ∑ k, z (r, k) · z (r, k))` and the constant; `0 + s = s`. -/
theorem unit_eq :
    val_main_v21 (F := Ideal) x0 x2 x3 x4 x5 x6 x7
      = Cert.Encoder.encode (Ideal.ofBits .f32 0x2B8CBCCC#32) x0 x2 x3 x4 x5 x6 x7 := by
  funext i
  obtain ⟨r, c, rfl⟩ : ∃ (r : Fin 8192) (c : Fin 128), i = ix2 r c := ⟨i 0, i 1, eq_ix2 i⟩
  rw [val_main_v21_apply, val_main_v20_apply, val_main_v19_apply, val_main_v17_apply, val_main_v16_apply,
    val_main_v15_apply, val_main_v18_apply, val_main_cst_0_apply, val_main_cst_apply]
  simp only [val_main_v14_apply]
  rw [layers_eq]
  have hk : ∀ k : Fin 128, idx_main_v15 (idx_main_v16 (idx_main_v20 (ix2 r c))) k = ix2 r k := fun k =>
    funext fun a => Fin.ext (by match a with | ⟨0, _⟩ => rfl | ⟨1, _⟩ => rfl)
  simp only [hk]
  rw [Ideal.ofBits_def, Ideal.ofBits_def, Ideal.ofBits_zero_f32, zero_add]
  rfl

/-- The second array goes through the same operations. -/
theorem unit_eq' :
    val_main_v43 (F := Ideal) x1 x2 x3 x4 x5 x6 x7
      = Cert.Encoder.encode (Ideal.ofBits .f32 0x2B8CBCCC#32) x1 x2 x3 x4 x5 x6 x7 :=
  unit_eq x1 x2 x3 x4 x5 x6 x7

/-! ## Rows against rows -/

/-- The rows of the first encoded array against the rows of the second; the division by one changes nothing. -/
theorem result_eq :
    val_main_v46 (F := Ideal) x0 x1 x2 x3 x4 x5 x6 x7
      = Cert.Encoder.gram (Cert.Encoder.encode (Ideal.ofBits .f32 0x2B8CBCCC#32) x0 x2 x3 x4 x5 x6 x7)
          (Cert.Encoder.encode (Ideal.ofBits .f32 0x2B8CBCCC#32) x1 x2 x3 x4 x5 x6 x7) := by
  funext i
  rw [val_main_v46_apply, val_main_v45_apply, val_main_cst_3_apply]
  unfold val_main_v44
  rw [unit_eq, unit_eq', Cert.Encoder.dotGeneral_gram dot_S8192x128_S8192x128_S8192x8192_1_1_0_0_n_n rfl]
  exact Cert.Encoder.div_one_word _

end Cert.ReferenceIdeal.RefValue

end
-- ==== Proof.lean ====
/-
  The certificate of a two-kernel program against its array-library reference, on the extended reals.

  Both programs send every row of two `[8192, 64]` arrays `x`, `y` through the same three affine layers (weights
  `64 × 512`, `512 × 512`, `512 × 128`, the maximum with zero after the first two), divide each resulting row by the
  larger of its Euclidean length and a small constant, and return every such row of `x` against every such row of `y`:
  `out (i, j) = ∑ k, zx (i, k) · zy (j, k)`. The kernel program stacks `x` on `y`, encodes the stack sixteen blocks of
  `1024` rows at a time in one kernel, slices the two halves back out, and forms the `8192 × 8192` products in a second
  kernel, one `1024 × 2048` tile per grid point; the reference encodes `x` and `y` one after the other with general dot
  products, and divides the product by `1`. On the extended reals a change of float format is the identity, a matrix
  unit's product into a zero accumulator and a general dot product are the same sum, and a row of the encoder depends on
  the same row of its input only: so the two results are one function of the arguments, index by index. No law that
  would need a finite entry is used, so the precondition is not opened.

  The three frames: the two kernel programs' by their generated frame certificates, the reference's by its generated run
  with the result dropped. The idealization rewrote no operation, so `preserves` holds trivially.
-/
import proofs.«171205_j37538014167585_2_alg».proof.Defs
import proofs.«171205_j37538014167585_2_alg».proof.Proof.Gen.Kernel
import proofs.«171205_j37538014167585_2_alg».proof.Proof.Gen.Kernel.Skeleton
import proofs.«171205_j37538014167585_2_alg».proof.Proof.Gen.Kernel.Launch
import proofs.«171205_j37538014167585_2_alg».proof.Proof.Gen.Kernel.Points
import proofs.«171205_j37538014167585_2_alg».proof.Proof.Gen.Kernel.Frame
import proofs.«171205_j37538014167585_2_alg».proof.Proof.Gen.KernelIdeal
import proofs.«171205_j37538014167585_2_alg».proof.Proof.Gen.KernelIdeal.Skeleton
import proofs.«171205_j37538014167585_2_alg».proof.Proof.Gen.KernelIdeal.Launch
import proofs.«171205_j37538014167585_2_alg».proof.Proof.Gen.KernelIdeal.Points
import proofs.«171205_j37538014167585_2_alg».proof.Proof.Gen.KernelIdeal.Frame
import proofs.«171205_j37538014167585_2_alg».proof.Proof.Gen.ReferenceIdeal
import proofs.«171205_j37538014167585_2_alg».proof.Proof.Gen.Pre_finite_inputs
import proofs.«171205_j37538014167585_2_alg».proof.Proof.Gen.ReferenceIdeal.Run
import proofs.«171205_j37538014167585_2_alg».proof.Proof.Gen.ReferenceIdeal.Read
import proofs.«171205_j37538014167585_2_alg».proof.Proof.RunValue
import proofs.«171205_j37538014167585_2_alg».proof.Proof.KernelValue
import proofs.«171205_j37538014167585_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at every encoded row of the first argument against every encoded row of the
    second: the kernel program by its two regions read back, the reference by its operations read one at a time. -/
theorem algebraic : Cert.algebraic_KernelIdeal_ReferenceIdeal := by
  intro m ρ m' ρ' _ hagree
  refine ⟨fun c => Cert.Encoder.gram
      (Cert.Encoder.encode (Ideal.ofBits .f32 0x2B8CBCCC#32) (m ((c : Thread Cert.KernelIdeal.nD Cert.KernelIdeal.τ).loc Cert.KernelIdeal.main_arg0))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg4)) (m ((c : Thread Cert.KernelIdeal.nD Cert.KernelIdeal.τ).loc Cert.KernelIdeal.main_arg5))
        (m ((c : Thread Cert.KernelIdeal.nD Cert.KernelIdeal.τ).loc Cert.KernelIdeal.main_arg6)) (m ((c : Thread Cert.KernelIdeal.nD Cert.KernelIdeal.τ).loc Cert.KernelIdeal.main_arg7)))
      (Cert.Encoder.encode (Ideal.ofBits .f32 0x2B8CBCCC#32) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg4)) (m ((c : Thread Cert.KernelIdeal.nD Cert.KernelIdeal.τ).loc Cert.KernelIdeal.main_arg5))
        (m ((c : Thread Cert.KernelIdeal.nD Cert.KernelIdeal.τ).loc Cert.KernelIdeal.main_arg6)) (m ((c : Thread Cert.KernelIdeal.nD Cert.KernelIdeal.τ).loc Cert.KernelIdeal.main_arg7))),
    ?_, ?_⟩
  · exact (θ_run Cert.KernelIdeal.defs _ _).mono
      (fun r h c => ⟨(h c).1.trans (Cert.KernelIdeal.KernelValue.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
